-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x1024 : Shape := ⟨3, ![512, 64, 1024]⟩
abbrev S64x1024 : Shape := ⟨2, ![64, 1024]⟩
abbrev S1024x1024 : Shape := ⟨2, ![1024, 1024]⟩
abbrev S_ : Shape := ⟨0, ![]⟩

class Facts : Prop where
  bcast_S_S512x64x1024 : S_.BroadcastsInDim S512x64x1024 (![] : Fin 0 → Fin S512x64x1024.rank)
  reducesTo_S512x64x1024_S_d0_1_2 : S512x64x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S512x64x1024 .f32) (main_arg1 : FVec F S64x1024 .f32) (main_arg2 : FVec F S1024x1024 .f32) (main_arg3 : FVec F S1024x1024 .f32) : IVec S_ 1 :=
  let main_v0 : FVec F S512x64x1024 .f32 := Host.absf main_arg0
  let main_cst : FVec F S_ .f32 := constant S_ .f32 0x7F800000#32
  let main_v1 : FVec F S512x64x1024 .f32 := broadcastInDim S512x64x1024 ![] bcast_S_S512x64x1024 main_cst
  let main_v2 : IVec S512x64x1024 1 := cmpf .olt main_v0 main_v1
  let main_c : IVec S_ 1 := constantI S_ 1 1#1
  let main_v3 : IVec S_ 1 := (fun x v => Host.reduce IntOp.andi x v reducesTo_S512x64x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S512x64x1024 : Shape := ⟨3, ![512, 64, 1024]⟩
abbrev S64x1024 : Shape := ⟨2, ![64, 1024]⟩
abbrev S1024x1024 : Shape := ⟨2, ![1024, 1024]⟩
abbrev S16x64x1024 : Shape := ⟨3, ![16, 64, 1024]⟩
abbrev S1x64x1024 : Shape := ⟨3, ![1, 64, 1024]⟩

abbrev nBuf : Space → Nat
  | .hbm => 11
  | .vmem => 6
  | .smem => 0
  | _ => 0

abbrev bufTy : (tb : Table) → Fin (tcTables nBuf tb) → BufTy
  | .hbm, ⟨0, _⟩ => ⟨S512x64x1024, .f32⟩
  | .hbm, ⟨1, _⟩ => ⟨S64x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S64x1024, .f32⟩
  | .hbm, ⟨6, _⟩ => ⟨S1024x1024, .f32⟩
  | .hbm, ⟨7, _⟩ => ⟨S1024x1024, .bf16⟩
  | .hbm, ⟨8, _⟩ => ⟨S512x64x1024, .f32⟩
  | .hbm, ⟨9, _⟩ => ⟨S1x64x1024, .f32⟩
  | .hbm, ⟨10, _⟩ => ⟨S64x1024, .f32⟩
  | .local _ .vmem, ⟨0, _⟩ => ⟨S16x64x1024, .f32⟩
  | .local _ .vmem, ⟨1, _⟩ => ⟨S16x64x1024, .f32⟩
  | .local _ .vmem, ⟨2, _⟩ => ⟨S1024x1024, .bf16⟩
  | .local _ .vmem, ⟨3, _⟩ => ⟨S64x1024, .f32⟩
  | .local _ .vmem, ⟨4, _⟩ => ⟨S16x64x1024, .f32⟩
  | .local _ .vmem, ⟨5, _⟩ => ⟨S16x64x1024, .f32⟩
  | _, _ => ⟨S512x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  bitsLt_bf16_f32 : FTy.bits .bf16 < FTy.bits .f32
  inb_S16x64x1024_S16x64x1024_0_0_0 : ∀ a, (![0, 0, 0] : Fin 3 → Nat) a + S16x64x1024.size a ≤ S16x64x1024.size a
  h_S16x64x1024 : 0 < S16x64x1024.numel
  shapeCasts_S16x64x1024_S1024x1024 : S16x64x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S16x64x1024 : S1024x1024.ShapeCasts S16x64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S64x1024_S1x64x1024 : S64x1024.ShapeCasts S1x64x1024
  broadcasts_S1x64x1024_S16x64x1024 : S1x64x1024.Broadcasts S16x64x1024
  slices_S512x64x1024_S1x64x1024_511_0_0 : S512x64x1024.Slices ![511, 0, 0] S1x64x1024
  shapeCasts_S1x64x1024_S64x1024 : S1x64x1024.ShapeCasts S64x1024
  dot_S64x1024_S1024x1024_S64x1024_1_0_0_1_n_n_wf : DotDims.WF S64x1024 S1024x1024 S64x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1024.size a ≤ S512x64x1024.size a
  hwx0_0 : ∀ i : grid0.Coords, EltTy.bits .f32 = 32 ∨ (Rect.block (s := S512x64x1024) S16x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x1024.size a ≤ S512x64x1024.size a
  hwx0_3 : ∀ i : grid0.Coords, EltTy.bits .f32 = 32 ∨ (Rect.block (s := S512x64x1024) S16x64x1024.size (cc0_transform_3 i) (hinb0_3 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x64x1024 : Shape := ⟨3, ![512, 64, 1024]⟩
abbrev S64x1024 : Shape := ⟨2, ![64, 1024]⟩
abbrev S1024x1024 : Shape := ⟨2, ![1024, 1024]⟩
abbrev S1x64x1024 : Shape := ⟨3, ![1, 64, 1024]⟩

abbrev nBuf : Space → Nat
  | .hbm => 13
  | .vmem => 0
  | .smem => 0
  | _ => 0

abbrev bufTy : (tb : Table) → Fin (tcTables nBuf tb) → BufTy
  | .hbm, ⟨0, _⟩ => ⟨S512x64x1024, .f32⟩
  | .hbm, ⟨1, _⟩ => ⟨S64x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S64x1024, .f32⟩
  | .hbm, ⟨6, _⟩ => ⟨S512x64x1024, .f32⟩
  | .hbm, ⟨7, _⟩ => ⟨S1x64x1024, .f32⟩
  | .hbm, ⟨8, _⟩ => ⟨S512x64x1024, .f32⟩
  | .hbm, ⟨9, _⟩ => ⟨S512x64x1024, .f32⟩
  | .hbm, ⟨10, _⟩ => ⟨S512x64x1024, .f32⟩
  | .hbm, ⟨11, _⟩ => ⟨S1x64x1024, .f32⟩
  | .hbm, ⟨12, _⟩ => ⟨S64x1024, .f32⟩
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S64x1024_S1x64x1024_1_2 : S64x1024.BroadcastsInDim S1x64x1024 (![1, 2] : Fin 2 → Fin S1x64x1024.rank)
  bcast_S1x64x1024_S512x64x1024_0_1_2 : S1x64x1024.BroadcastsInDim S512x64x1024 (![0, 1, 2] : Fin 3 → Fin S512x64x1024.rank)
  slices_S512x64x1024_S1x64x1024_511_0_0 : S512x64x1024.Slices ![511, 0, 0] S1x64x1024
  shapeCasts_S1x64x1024_S64x1024 : S1x64x1024.ShapeCasts S64x1024
  dot_S64x1024_S1024x1024_S64x1024_1_0_0_1_n_n_wf : DotDims.WF S64x1024 S1024x1024 S64x1024 [1] [0] [0] [1] [] []
  dot_S512x64x1024_S1024x1024_S512x64x1024_2_1_01_0_n_n_wf : DotDims.WF S512x64x1024 S1024x1024 S512x64x1024 [2] [1] [0, 1] [0] [] []

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S512x64x1024_S1024x1024_S512x64x1024_2_1_01_0_n_n : DotDims S512x64x1024 S1024x1024 S512x64x1024 where
  lhsContracting := [2]
  rhsContracting := [1]
  lhsNonContracting := [0, 1]
  rhsNonContracting := [0]
  lhsBatch := []
  rhsBatch := []
  wf := dot_S512x64x1024_S1024x1024_S512x64x1024_2_1_01_0_n_n_wf

class Facts : Prop extends Facts₀ where

variable [Facts]
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.BodyValue.lean ====
/-
  What the kernel body stores at one entry of its output block. The block of X is 16 time steps × 64 batch rows
  × 1024 features; flattened to 1024 rows (row a · 64 + b for step a and batch row b), it is multiplied by the
  1024 × 1024 matrix Wᵀ into a zero accumulator; the product is cut back into 16 × 64 × 1024, the hidden term
  (64 × 1024) is repeated over the 16 steps and added, and tanh is applied. At entry (a, b, h) that is

      tanh ( Σ_c x (a, b, c) · wt (c, h)  +  hterm (b, h) ).
-/
import proofs.«105754_j53214644797476_2_alg».proof.Proof.Gen.KernelIdeal.Skeleton
import proofs.«105754_j53214644797476_2_alg».proof.Proof.LibDense
import Idealize.ShloMosaic.Lib.ValueLayout

noncomputable section

namespace Cert.Cell.Body

open Cert.KernelIdeal Cert.KernelIdeal.Gen Idealize.ShloMosaic Idealize.ShloMosaic.ValueIdx

/-- Step a, batch row b of the block is row a · 64 + b of its flattening. -/
theorem flat_row {φ : FTy} (x : FVec Ideal S16x64x1024 φ) (a : Fin 16) (b : Fin 64) (c : Fin 1024) (hr : a.val * 64 + b.val < 1024) :
    shapeCast S1024x1024 x shapeCasts_S16x64x1024_S1024x1024 (ix2 ⟨a.val * 64 + b.val, hr⟩ c) = x (ix3 a b c) :=
  shapeCast_apply x _ _ _ (by
    rw [Shape.rowMajor_val_three, Shape.rowMajor_val_two]
    rfl)

/-- And back: entry (a, b, h) of the cut-up product is row a · 64 + b, column h of the product. -/
theorem unflat_row {φ : FTy} (y : FVec Ideal S1024x1024 φ) (a : Fin 16) (b : Fin 64) (h : Fin 1024) (hr : a.val * 64 + b.val < 1024) :
    shapeCast S16x64x1024 y shapeCasts_S1024x1024_S16x64x1024 (ix3 a b h) = y (ix2 ⟨a.val * 64 + b.val, hr⟩ h) :=
  shapeCast_apply y _ _ _ (by
    rw [Shape.rowMajor_val_three, Shape.rowMajor_val_two]
    rfl)

/-- The hidden term repeated over the steps: entry (a, b, h) is the term at (b, h). -/
theorem repeated_at (v : FVec Ideal S64x1024 .f32) (a : Fin 16) (b : Fin 64) (h : Fin 1024) :
    broadcastTo S16x64x1024 (shapeCast S1x64x1024 (shapeCast S64x1024 v shapeCasts_S64x1024_S64x1024) shapeCasts_S64x1024_S1x64x1024)
      broadcasts_S1x64x1024_S16x64x1024 (ix3 a b h) = v (ix2 b h) := by
  rw [shapeCast_self]
  refine (broadcastTo_apply _ broadcasts_S1x64x1024_S16x64x1024 (ix3 a b h) (ix3 (0 : Fin 1) b h) fun ax => ?_).trans
    (shapeCast_ab_1ab_apply v shapeCasts_S64x1024_S1x64x1024 0 b h)
  match ax with
  | ⟨0, _⟩ => rfl
  | ⟨1, _⟩ => rfl
  | ⟨2, _⟩ => rfl

/-- The body's stored value at entry (a, b, h) of the block. -/
theorem stored_at (x : Vec Ideal S16x64x1024 .f32) (wt : Vec Ideal S1024x1024 .bf16) (ht : Vec Ideal S64x1024 .f32)
    (a : Fin 16) (b : Fin 64) (h : Fin 1024) :
    k0_pay1 (F := Ideal) x wt ht (ix3 a b h) = Ideal.tanh ((∑ c : Fin 1024, x (ix3 a b c) * wt (ix2 c h)) + ht (ix2 b h)) := by
  have hr : a.val * 64 + b.val < 1024 := by have := a.isLt; have := b.isLt; omega
  unfold k0_pay1
  refine congrArg Ideal.tanh (congrArg₂ (· + ·) ?_ (repeated_at ht a b h))
  refine (unflat_row _ a b h hr).trans ?_
  refine (Cert.Dense.matmul_plain_apply dot_S1024x1024_S1024x1024_S1024x1024_1_0_0_1_n_n_wf _ _ ⟨a.val * 64 + b.val, hr⟩ h).trans ?_
  refine Finset.sum_congr rfl fun c _ => ?_
  exact congrArg₂ (· * ·) (flat_row _ a b c hr) (congrFun (shapeCast_self wt shapeCasts_S1024x1024_S1024x1024) (ix2 c h))

end Cert.Cell.Body

end
-- ==== Proof.CellSpec.lean ====
/-
  A recurrent cell whose state is never fed back. For every time step s, batch row b and hidden unit h

      out (s, b, h) = tanh ( Σ_k X (s, b, k) · W (h, k)  +  Σ_k hs (b, k) · H (h, k) )

  on the extended reals: the input term X · Wᵀ plus the hidden term hs · Hᵀ, which is the same at every
  time step. The second result is the slab of the last time step, out (511, ·, ·), as a 64 × 1024 matrix.
-/
import Idealize.ShloMosaic.PureOps.Ideal
import Idealize.ShloMosaic.Lib.ValueIdx

noncomputable section

namespace Cert.Cell

open Idealize.ShloMosaic Idealize.ShloMosaic.ValueIdx

/-- Time × batch × feature. -/
abbrev SX : Shape := ⟨3, ![512, 64, 1024]⟩
/-- Batch × hidden. -/
abbrev SB : Shape := ⟨2, ![64, 1024]⟩
/-- A square weight matrix. -/
abbrev SM : Shape := ⟨2, ![1024, 1024]⟩
/-- One time step's slab with its unit time axis kept. -/
abbrev SL : Shape := ⟨3, ![1, 64, 1024]⟩

/-- The hidden term hs · Hᵀ at (b, h): the sum over k of hs (b, k) · H (h, k). -/
def hidden (hs : FVec Ideal SB .f32) (H : FVec Ideal SM .f32) (b : Fin 64) (h : Fin 1024) : EReal :=
  ∑ k : Fin 1024, hs (ix2 b k) * H (ix2 h k)

/-- The input term X · Wᵀ at (s, b, h): the sum over k of X (s, b, k) · W (h, k). -/
def drive (X : FVec Ideal SX .f32) (W : FVec Ideal SM .f32) (s : Fin 512) (b : Fin 64) (h : Fin 1024) : EReal :=
  ∑ k : Fin 1024, X (ix3 s b k) * W (ix2 h k)

/-- Every time step's output: tanh of the input term plus the hidden term. -/
def outputs (X : FVec Ideal SX .f32) (hs : FVec Ideal SB .f32) (W H : FVec Ideal SM .f32) : FVec Ideal SX .f32 :=
  fun i => Ideal.tanh (drive X W (i 0) (i 1) (i 2) + hidden hs H (i 1) (i 2))

theorem slices_last : SX.Slices ![511, 0, 0] SL := by decide
theorem casts_last : SL.ShapeCasts SB := by decide

/-- The slab of the last time step, as a matrix: the slice at time 511 with its unit axis dropped. -/
def lastStep (y : FVec Ideal SX .f32) : FVec Ideal SB .f32 :=
  shapeCast SB (extractStridedSlice SL ![511, 0, 0] y slices_last) casts_last

end Cert.Cell

end
-- ==== Proof.KernelArray.lean ====
/-
  The output array after the kernel's region. The grid has 32 points; point t stages time steps 16 t … 16 t + 15
  of X (all batch rows, all features), the whole transposed weight matrix Wᵀ and the whole hidden term, and writes
  back time steps 16 t … 16 t + 15 of the output. What it writes at (a, b, h) of its block is the cell's output at
  time step 16 t + a: the block of X read at (a, b, k) is X at (16 t + a, b, k), Wᵀ at (k, h) is W at (h, k), and
  the hidden term at (b, h) is the host's product hs · Hᵀ. The 32 blocks tile the time axis, so the whole array
  ends at the cell's outputs.
-/
import proofs.«105754_j53214644797476_2_alg».proof.Proof.Gen.KernelIdeal.Frame
import proofs.«105754_j53214644797476_2_alg».proof.Proof.BodyValue
import proofs.«105754_j53214644797476_2_alg».proof.Proof.CellSpec
import Idealize.ShloMosaic.Lib.Pipeline.Value
import Idealize.ShloMosaic.Lib.StableHlo.Run

set_option maxRecDepth 16384

noncomputable section

namespace Cert.Cell.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region finds in the two arrays the host lines before it wrote -/

/-- The second window's array is the transposed weight matrix (a change of format is the identity). -/
theorem wt_eq (c : Dev nD) : @Eq (S1024x1024.Idx → EReal) (V m c main_v3)
    (truncf (F := Ideal) .bf16 (transpose S1024x1024 [1, 0] (m ((c : Thread nD τ).loc main_arg2)) transposes_S1024x1024_S1024x1024_1_0) bitsLt_bf16_f32) := by
  show StableHlo.after hostOps0 (fun b => m (c, b)) (Proc.devRef .tc main_v3) = _
  after_results

/-- Read at (k, h) it is W at (h, k). -/
theorem wt_at (c : Dev nD) (k h : Fin 1024) :
    (V m c main_v3 : S1024x1024.Idx → EReal) (ix2 k h) = m ((c : Thread nD τ).loc main_arg2) (ix2 h k) := by
  rw [wt_eq]
  exact transpose_ix2_apply (m ((c : Thread nD τ).loc main_arg2)) transposes_S1024x1024_S1024x1024_1_0 k h

/-- The third window's array is the host's product of the hidden state with the transposed H. -/
theorem hterm_eq (c : Dev nD) : @Eq (S64x1024.Idx → EReal) (V m c main_v1)
    (Host.dotGeneral (F := Ideal) (φ₁ := .f32) (φ₂ := .f32) dot_S64x1024_S1024x1024_S64x1024_1_0_0_1_n_n none
      (m ((c : Thread nD τ).loc main_arg1) : S64x1024.Idx → EReal)
      (transpose (α := EReal) S1024x1024 [1, 0] (m ((c : Thread nD τ).loc main_arg3) : S1024x1024.Idx → EReal)
        transposes_S1024x1024_S1024x1024_1_0)) := by
  show StableHlo.after hostOps0 (fun b => m (c, b)) (Proc.devRef .tc main_v1) = _
  after_results

/-- Read at (b, h) it is the cell's hidden term. -/
theorem hterm_at (c : Dev nD) (b : Fin 64) (h : Fin 1024) :
    (V m c main_v1 : S64x1024.Idx → EReal) (ix2 b h)
      = hidden (m ((c : Thread nD τ).loc main_arg1)) (m ((c : Thread nD τ).loc main_arg3)) b h := by
  rw [hterm_eq]
  refine (Cert.Dense.hostDot_plain_apply dot_S64x1024_S1024x1024_S64x1024_1_0_0_1_n_n_wf _ _ b h).trans ?_
  refine Finset.sum_congr rfl fun k _ => ?_
  have e := transpose_ix2_apply (α := EReal) (m ((c : Thread nD τ).loc main_arg3)) transposes_S1024x1024_S1024x1024_1_0 k h
  rw [e]

/-! ## One stored entry, over any blocks that hold the right entries of the arrays -/

/-- If the staged blocks hold, at the entries the body reads for block entry j, the arrays' entries that the cell
    reads for array entry i, the body stores the cell's output at i. -/
theorem point_value (x : Vec Ideal S16x64x1024 .f32) (wt : Vec Ideal S1024x1024 .bf16) (ht : Vec Ideal S64x1024 .f32)
    (X : FVec Ideal SX .f32) (hs : FVec Ideal SB .f32) (W H : FVec Ideal SM .f32)
    (j : S16x64x1024.Idx) (i : SX.Idx)
    (hx : ∀ k : Fin 1024, x (ix3 (j 0) (j 1) k) = X (ix3 (i 0) (i 1) k))
    (hw : ∀ k : Fin 1024, wt (ix2 k (j 2)) = W (ix2 (i 2) k))
    (hh : ht (ix2 (j 1) (j 2)) = hidden hs H (i 1) (i 2)) :
    k0_pay1 (F := Ideal) x wt ht j = outputs X hs W H i := by
  refine ((congrArg (k0_pay1 (F := Ideal) x wt ht) (eq_ix3 j)).trans (Body.stored_at x wt ht (j 0) (j 1) (j 2))).trans ?_
  have e : (∑ c : Fin 1024, x (ix3 (j 0) (j 1) c) * wt (ix2 c (j 2))) = drive X W (i 0) (i 1) (i 2) :=
    Finset.sum_congr rfl fun k _ => by rw [hx k, hw k]
  rw [e, hh]
  rfl

/-! ## The blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices at every grid point: the X window and the output window sit at time block t, every other
    coordinate of every window at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What grid point t writes back is block t of the cell's outputs. -/
theorem flushed_eq (c : Dev nD) (t : Fin cfg0.N) :
    (dats m 0 c).flushed 3 t = ((cfg0.win 3).blk t).view.read (Elt Ideal)
      (outputs (m ((c : Thread nD τ).loc main_arg0)) (m ((c : Thread nD τ).loc main_arg1))
        (m ((c : Thread nD τ).loc main_arg2)) (m ((c : Thread nD τ).loc main_arg3))) := by
  show (cfg0.win 3).cut (grid0.coords t) ((dats m 0 c).after 3 t) = _
  rw [after0_3]
  unfold out0_3
  rw [View.canon_unit_zero hz3]
  simp only [View.ld_unit_zero (S := S16x64x1024) hz3, View.ld_unit_zero (S := S1024x1024) hz2,
    View.ld_unit_zero (S := S64x1024) hz2]
  obtain ⟨e0, e1, e2, e3, e4, e5, e6, e7, e8, e9⟩ := idx_facts t
  funext j
  refine point_value (iblk m c 0 t) (iblk m c 1 t) (iblk m c 2 t)
    (m ((c : Thread nD τ).loc main_arg0)) (m ((c : Thread nD τ).loc main_arg1))
    (m ((c : Thread nD τ).loc main_arg2)) (m ((c : Thread nD τ).loc main_arg3))
    ((win0 3).xinj (grid0.coords t) j) (((cfg0.win 3).blk t).view.emb j) ?_ ?_ ?_
  · intro k
    show V m c main_arg0 (((cfg0.win 0).blk t).view.emb
      (ix3 ((win0 3).xinj (grid0.coords t) j 0) ((win0 3).xinj (grid0.coords t) j 1) k)) = _
    refine (congrFun (V_main_arg0 m c) _).trans ?_
    refine congrArg (m ((c : Thread nD τ).loc main_arg0)) (funext fun a => Fin.ext ?_)
    match a with
    | ⟨0, _⟩ => show win0_0.index t (0 : Fin 3) * 16 + 1 * (j 0).val = win0_3.index t (0 : Fin 3) * 16 + 1 * (j 0).val; omega
    | ⟨1, _⟩ => show win0_0.index t (1 : Fin 3) * 64 + 1 * (j 1).val = win0_3.index t (1 : Fin 3) * 64 + 1 * (j 1).val; omega
    | ⟨2, _⟩ => show win0_0.index t (2 : Fin 3) * 1024 + 1 * k.val = k.val; omega
  · intro k
    show (V m c main_v3 : S1024x1024.Idx → EReal) (((cfg0.win 1).blk t).view.emb
      (ix2 k ((win0 3).xinj (grid0.coords t) j 2))) = _
    have ei : ((cfg0.win 1).blk t).view.emb (ix2 k ((win0 3).xinj (grid0.coords t) j 2))
        = ix2 k (((cfg0.win 3).blk t).view.emb j 2) := funext fun a => Fin.ext (by
      match a with
      | ⟨0, _⟩ => show win0_1.index t (0 : Fin 2) * 1024 + 1 * k.val = k.val; omega
      | ⟨1, _⟩ => show win0_1.index t (1 : Fin 2) * 1024 + 1 * (j 2).val = win0_3.index t (2 : Fin 3) * 1024 + 1 * (j 2).val; omega)
    rw [ei]
    exact wt_at m c k _
  · show (V m c main_v1 : S64x1024.Idx → EReal) (((cfg0.win 2).blk t).view.emb
      (ix2 ((win0 3).xinj (grid0.coords t) j 1) ((win0 3).xinj (grid0.coords t) j 2))) = _
    have ei : ((cfg0.win 2).blk t).view.emb (ix2 ((win0 3).xinj (grid0.coords t) j 1) ((win0 3).xinj (grid0.coords t) j 2))
        = ix2 (((cfg0.win 3).blk t).view.emb j 1) (((cfg0.win 3).blk t).view.emb j 2) := funext fun a => Fin.ext (by
      match a with
      | ⟨0, _⟩ => show win0_2.index t (0 : Fin 2) * 64 + 1 * (j 1).val = win0_3.index t (1 : Fin 3) * 64 + 1 * (j 1).val; omega
      | ⟨1, _⟩ => show win0_2.index t (1 : Fin 2) * 1024 + 1 * (j 2).val = win0_3.index t (2 : Fin 3) * 1024 + 1 * (j 2).val; omega)
    rw [ei]
    exact hterm_at m c _ _

/-- An index of the output array lies in point t's block iff each coordinate lies in the block's range on its axis. -/
theorem mem_blk (t : Fin cfg0.N) (i : S512x64x1024.Idx) :
    i ∈ ((cfg0.win 3).blk t).view.set ↔ ∀ a : Fin 3, win0_3.index t a * S16x64x1024.size a ≤ (i a).val
      ∧ (i a).val < win0_3.index t a * S16x64x1024.size a + S16x64x1024.size a := by
  show i ∈ ((View.whole main_v4).slice (win0_3.rect t)).set ↔ _
  rw [View.set_slice_whole, Rect.mem_set_unit]
  exact Iff.rfl

/-- Every index of the output array is written back by the point of its time block: time step s by point s / 16. -/
theorem cover (i : S512x64x1024.Idx) :
    ∃ t : Fin cfg0.N, (cfg0.win 3).flush t = true ∧ i ∈ ((cfg0.win 3).blk t).view.set := by
  have hi0 : (i 0).val < 512 := (i 0).isLt
  have hi1 : (i 1).val < 64 := (i 1).isLt
  have hi2 : (i 2).val < 1024 := (i 2).isLt
  have hN : (i 0).val / 16 < cfg0.N := by rw [show cfg0.N = 32 from N_0]; omega
  obtain ⟨-, -, -, -, -, -, -, e7, e8, e9⟩ := idx_facts ⟨(i 0).val / 16, hN⟩
  have e7' : win0_3.index ⟨(i 0).val / 16, hN⟩ (0 : Fin 3) = (i 0).val / 16 := e7
  refine ⟨⟨(i 0).val / 16, hN⟩, flush0_3 _, ?_⟩
  rw [mem_blk]
  intro a
  match a with
  | ⟨0, _⟩ =>
    show win0_3.index ⟨(i 0).val / 16, hN⟩ (0 : Fin 3) * 16 ≤ (i 0).val
      ∧ (i 0).val < win0_3.index ⟨(i 0).val / 16, hN⟩ (0 : Fin 3) * 16 + 16
    omega
  | ⟨1, _⟩ =>
    show win0_3.index ⟨(i 0).val / 16, hN⟩ (1 : Fin 3) * 64 ≤ (i 1).val
      ∧ (i 1).val < win0_3.index ⟨(i 0).val / 16, hN⟩ (1 : Fin 3) * 64 + 64
    omega
  | ⟨2, _⟩ =>
    show win0_3.index ⟨(i 0).val / 16, hN⟩ (2 : Fin 3) * 1024 ≤ (i 2).val
      ∧ (i 2).val < win0_3.index ⟨(i 0).val / 16, hN⟩ (2 : Fin 3) * 1024 + 1024
    omega

/-- The output array after the region: the cell's outputs of the four arguments. -/
theorem final (c : Dev nD) : (dats m 0 c).arrAt 3 cfg0.N
    = outputs (m ((c : Thread nD τ).loc main_arg0)) (m ((c : Thread nD τ).loc main_arg1))
        (m ((c : Thread nD τ).loc main_arg2)) (m ((c : Thread nD τ).loc main_arg3)) :=
  (dats m 0 c).arrAt_eq_of_cover 3 _ (fun t _ => flushed_eq m c t) cover

end Cert.Cell.Kernel

end
-- ==== Proof.KernelRun.lean ====
/-
  The kernel's whole run. The region leaves the cell's outputs in the first result; the two host lines after it
  slice out the last time step and drop its unit axis, which is the second result; the four arguments end as they
  were launched.
-/
import proofs.«105754_j53214644797476_2_alg».proof.Proof.KernelArray

set_option maxRecDepth 16384

noncomputable section

namespace Cert.Cell.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The host lines after the region read the output array the region left and leave the last time step's slab. -/
theorem tail_eq (c : Dev nD) :
    Pipeline.afterTail₀ cfgs (dats m) 0 (V0 m) [hostOps1] c main_v6
      = lastStep (outputs (m ((c : Thread nD τ).loc main_arg0)) (m ((c : Thread nD τ).loc main_arg1))
          (m ((c : Thread nD τ).loc main_arg2)) (m ((c : Thread nD τ).loc main_arg3))) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4)
      = outputs (m ((c : Thread nD τ).loc main_arg0)) (m ((c : Thread nD τ).loc main_arg1))
          (m ((c : Thread nD τ).loc main_arg2)) (m ((c : Thread nD τ).loc main_arg3)) :=
    (Pipeline.withArrays_arr spec0 launch0.win.arr_inj c _ _ 3).trans (final m c)
  rw [e]
  rfl

/-- Every weakly fair execution of the kernel's program terminates with the first result at the cell's outputs of
    the four arguments, the second at the last time step's slab of them, and the arguments unchanged. -/
theorem run : θ_run defs (onTc (τ := τ) (main (F := Ideal))) ⟨m, fun _ => 0, ρ⟩ fun r => ∀ c : Dev nD,
      r.2.mem ((c : Thread nD τ).loc main_v4)
        = outputs (m ((c : Thread nD τ).loc main_arg0)) (m ((c : Thread nD τ).loc main_arg1))
            (m ((c : Thread nD τ).loc main_arg2)) (m ((c : Thread nD τ).loc main_arg3))
      ∧ r.2.mem ((c : Thread nD τ).loc main_v6)
        = lastStep (outputs (m ((c : Thread nD τ).loc main_arg0)) (m ((c : Thread nD τ).loc main_arg1))
            (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Cell.Kernel

end
-- ==== Proof.RefIsCell.lean ====
/-
  The reference computes the cell's outputs. Its einsum contracts the feature axis of X against the second
  axis of W, which is X · Wᵀ; its hidden term is hs times the transposed H, broadcast over the time axis; it adds
  the two and applies tanh. Read one operation at a time at an index (s, b, h), its operands' indices are
  (s, b, k), (h, k) and (b, k), (h, k): the cell's two sums.
-/
import proofs.«105754_j53214644797476_2_alg».proof.Proof.Gen.ReferenceIdeal.Read
import proofs.«105754_j53214644797476_2_alg».proof.Proof.CellSpec

noncomputable section

namespace Cert.Cell.Reference

open Cert.ReferenceIdeal Cert.ReferenceIdeal.Read Idealize.ShloMosaic Idealize.ShloMosaic.ValueIdx

/-- The einsum's left operand at output entry (s, b, h) and contracted coordinate k: X at (s, b, k). -/
theorem lidx_drive (s : Fin 512) (b : Fin 64) (h k : Fin 1024) : lidx_main_v2 (ix3 s b h) k = ix3 s b k :=
  funext fun a => by match a with | ⟨0, _⟩ => rfl | ⟨1, _⟩ => rfl | ⟨2, _⟩ => rfl

/-- Its right operand: W at (h, k). -/
theorem ridx_drive (s : Fin 512) (b : Fin 64) (h k : Fin 1024) : ridx_main_v2 (ix3 s b h) k = ix2 h k :=
  funext fun a => by match a with | ⟨0, _⟩ => rfl | ⟨1, _⟩ => rfl

/-- The hidden term's left operand, through the two broadcasts: hs at (b, k). -/
theorem lidx_hidden (s : Fin 512) (b : Fin 64) (h k : Fin 1024) :
    lidx_main_v1 (idx_main_v3 (idx_main_v4 (ix3 s b h))) k = ix2 b k :=
  funext fun a => by match a with | ⟨0, _⟩ => rfl | ⟨1, _⟩ => rfl

/-- Its right operand, through the transpose: H at (h, k). -/
theorem ridx_hidden (s : Fin 512) (b : Fin 64) (h k : Fin 1024) :
    idx_main_v0 (ridx_main_v1 (idx_main_v3 (idx_main_v4 (ix3 s b h))) k) = ix2 h k :=
  funext fun a => by match a with | ⟨0, _⟩ => rfl | ⟨1, _⟩ => rfl

/-- The reference's first result is the cell's outputs of its four arguments. -/
theorem outputs_eq (x0 : FVec Ideal SX .f32) (x1 : FVec Ideal SB .f32) (x2 x3 : FVec Ideal SM .f32) :
    val_main_v6 (F := Ideal) x0 x1 x2 x3 = outputs x0 x1 x2 x3 := by
  funext i
  obtain ⟨s, b, h, rfl⟩ : ∃ (s : Fin 512) (b : Fin 64) (h : Fin 1024), i = ix3 s b h := ⟨i 0, i 1, i 2, eq_ix3 i⟩
  rw [val_main_v6_apply, val_main_v5_apply, val_main_v2_apply, val_main_v4_apply, val_main_v3_apply, val_main_v1_apply]
  simp only [val_main_v0_apply, lidx_drive, ridx_drive, lidx_hidden, ridx_hidden]
  rfl

/-- Its second result is the last time step's slab of the same outputs. -/
theorem last_eq (x0 : FVec Ideal SX .f32) (x1 : FVec Ideal SB .f32) (x2 x3 : FVec Ideal SM .f32) :
    val_main_v8 (F := Ideal) x0 x1 x2 x3 = lastStep (outputs x0 x1 x2 x3) := by
  unfold val_main_v8 val_main_v7
  rw [outputs_eq]
  rfl

end Cert.Cell.Reference

end
-- ==== Proof.lean ====
/-
  A recurrent cell whose state is never fed back: for every time step s, batch row b and hidden unit h

      out (s, b, h) = tanh ( Σ_k X (s, b, k) · W (h, k)  +  Σ_k hs (b, k) · H (h, k) ),

  and as a second result the last time step's slab out (511, ·, ·).

  The kernel computes the hidden term hs · Hᵀ once on the host, transposes W on the host, and then, for each block
  of 16 time steps, multiplies the 1024 flattened (step, batch) rows of X by Wᵀ into a zero accumulator, adds the
  hidden term repeated over the steps and applies tanh. The reference contracts X against W directly, broadcasts the
  hidden term over all 512 steps, adds and applies tanh. On the extended reals a change of float format is the
  identity, a matrix product into a zero accumulator is the plain sum over the contracted coordinate, and the
  kernel's and the host's tanh are one function; so both programs compute the two sums above entry by entry, the
  kernel's 32 blocks tile the time axis, and both take the same slice of the same array for the second result. No
  law beyond reading each operation at an index is needed, so finiteness of the inputs is not used.
-/
import proofs.«105754_j53214644797476_2_alg».proof.Defs
import proofs.«105754_j53214644797476_2_alg».proof.Proof.Gen.Kernel
import proofs.«105754_j53214644797476_2_alg».proof.Proof.Gen.Kernel.Skeleton
import proofs.«105754_j53214644797476_2_alg».proof.Proof.Gen.Kernel.Launch
import proofs.«105754_j53214644797476_2_alg».proof.Proof.Gen.Kernel.Points
import proofs.«105754_j53214644797476_2_alg».proof.Proof.Gen.Kernel.Frame
import proofs.«105754_j53214644797476_2_alg».proof.Proof.Gen.KernelIdeal
import proofs.«105754_j53214644797476_2_alg».proof.Proof.Gen.KernelIdeal.Skeleton
import proofs.«105754_j53214644797476_2_alg».proof.Proof.Gen.KernelIdeal.Launch
import proofs.«105754_j53214644797476_2_alg».proof.Proof.Gen.KernelIdeal.Points
import proofs.«105754_j53214644797476_2_alg».proof.Proof.Gen.KernelIdeal.Frame
import proofs.«105754_j53214644797476_2_alg».proof.Proof.Gen.ReferenceIdeal
import proofs.«105754_j53214644797476_2_alg».proof.Proof.Gen.ReferenceIdeal.Run
import proofs.«105754_j53214644797476_2_alg».proof.Proof.Gen.ReferenceIdeal.Read
import proofs.«105754_j53214644797476_2_alg».proof.Proof.Gen.Pre_finite_inputs
import proofs.«105754_j53214644797476_2_alg».proof.Proof.KernelRun
import proofs.«105754_j53214644797476_2_alg».proof.Proof.RefIsCell
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the cell's outputs in the first result
    and the last time step's slab of them in the second. -/
theorem algebraic : Cert.algebraic_KernelIdeal_ReferenceIdeal := by
  intro m ρ m' ρ' _ hagree
  refine ⟨_, _, Cert.Cell.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v6_eq _ _ _ _).trans (Cert.Cell.Reference.outputs_eq _ _ _ _)
  · rw [(hagree c).1, (hagree c).2.1, (hagree c).2.2.1, (hagree c).2.2.2]
    exact (Cert.ReferenceIdeal.Read.val_main_v8_eq _ _ _ _).trans (Cert.Cell.Reference.last_eq _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
